-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x2048 .f32) (main_arg1 : FVec F S2048x2048 .f32) (main_arg2 : FVec F S2048x2048 .f32) (main_arg3 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S512x2048 : Shape := ⟨2, ![512, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S2048x2048_S2048x2048_1_0 : S2048x2048.Transposes [1, 0] S2048x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  shapeCasts_S256x2048_S256x2048 : S256x2048.ShapeCasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  transposes_S2048x2048_S2048x2048_1_0 : S2048x2048.Transposes [1, 0] S2048x2048
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.RowSoftmax.lean ====
/-
  The mathematics of the masked linear layer, stated once, away from both programs.

  A row r of 2048 extended reals is divided entrywise by the temperature, its largest entry is subtracted, the
  exponential is taken, and each entry is divided by the row's total: the softmax of r / temperature along the row.
  The masked weight at (o, i) is  rev(o, i) · softmax(mask(o, ·))(i) · weight(i, o)  — the weight matrix is read
  transposed — and the layer's output at (b, o) is  Σ_i  x(b, i) · maskedWeight(o, i).

  The temperature is kept as the float word both programs print (never evaluated: the same word divides on both
  sides), and so is the word of −∞ that both running maxima start from.
-/
import Idealize.ShloMosaic.PureOps.Ideal
import Idealize.ShloMosaic.Lib.ValueIdx

noncomputable section

open scoped BigOperators

namespace Cert.MaskedLinear

open Idealize.ShloMosaic Idealize.ShloMosaic.ValueIdx

/-- The temperature, as the extended real its float word denotes. -/
def temp : EReal := Ideal.ofBits .f32 0x358637BD#32

/-- The value the running maxima start from (the float word of −∞). -/
def floor : EReal := Ideal.ofBits .f32 0xFF800000#32

/-- A row's entry divided by the temperature. -/
def rowScaled (r : Fin 2048 → EReal) (k : Fin 2048) : EReal := Ideal.div (r k) temp

/-- The largest scaled entry of the row (a maximum over the 2048 entries, started from `floor`). -/
def rowTop (r : Fin 2048 → EReal) : EReal := (Finset.univ : Finset (Fin 2048)).fold max floor (rowScaled r)

/-- The exponential of a scaled entry once the row's largest is subtracted. -/
def rowExp (r : Fin 2048 → EReal) (k : Fin 2048) : EReal := Ideal.exp (rowScaled r k - rowTop r)

/-- The row's total of those exponentials. -/
def rowMass (r : Fin 2048 → EReal) : EReal := ∑ k : Fin 2048, rowExp r k

/-- The softmax of the scaled row at entry k. -/
def softmaxRow (r : Fin 2048 → EReal) (k : Fin 2048) : EReal := Ideal.div (rowExp r k) (rowMass r)

/-- A 2048 × 2048 matrix and an 8192 × 2048 matrix of extended reals, by index. -/
abbrev Sq : Shape := ⟨2, ![2048, 2048]⟩
abbrev Sx : Shape := ⟨2, ![8192, 2048]⟩

/-- Row o of a square matrix, as a function of the column. -/
def rowOf (M : Sq.Idx → EReal) (o : Fin 2048) : Fin 2048 → EReal := fun k => M (ix2 o k)

/-- The masked weight at (o, i): rev(o, i) · softmax(mask(o, ·))(i) · wT(o, i), where wT is the weight matrix
    already transposed. -/
def maskedAt (rev mask wT : Sq.Idx → EReal) (o i : Fin 2048) : EReal :=
  rev (ix2 o i) * softmaxRow (rowOf mask o) i * wT (ix2 o i)

/-- The masked weight matrix, by index. -/
def maskedMatrix (rev mask wT : Sq.Idx → EReal) : Sq.Idx → EReal := fun j => maskedAt rev mask wT (j 0) (j 1)

/-- x · Aᵀ for an 8192 × 2048 matrix x and a 2048 × 2048 matrix A, by index: entry (b, o) is Σ_i x(b, i) · A(o, i). -/
def timesTransposed (x : Sx.Idx → EReal) (A : Sq.Idx → EReal) : Sx.Idx → EReal :=
  fun j => ∑ k : Fin 2048, x (ix2 (j 0) k) * A (ix2 (j 1) k)

/-- The transpose of a square matrix, by index. -/
def transposed (w : Sq.Idx → EReal) : Sq.Idx → EReal := fun j => w (ix2 (j 1) (j 0))

/-- The layer: x · (masked weight)ᵀ, the masked weight built from rev, mask and the transposed weight. -/
def layer (x : Sx.Idx → EReal) (w rev mask : Sq.Idx → EReal) : Sx.Idx → EReal :=
  timesTransposed x (maskedMatrix rev mask (transposed w))

/-- The running maximum never falls below what it started from, so taking the maximum with the start once more
    changes nothing. -/
theorem max_floor_rowTop (r : Fin 2048 → EReal) : max floor (rowTop r) = rowTop r :=
  max_eq_right ((Finset.le_fold_max floor).2 (Or.inl le_rfl))

end Cert.MaskedLinear

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.MaskBlock.lean ====
/-
  What the mask kernel's body computes on one block of 256 rows.

  The body sees three [256, 2048] blocks — the mask rows, the rev rows and the rows of the transposed weight — and
  stores  rev · softmax(mask / temperature) · weightᵀ  entry by entry, the softmax taken along each of the 256 rows:
  the row maximum and the row total are lane reductions, carried back to the block's shape through a [256, 1] column.
  Narrowing the product to bf16 changes nothing at the extended reals.
-/
import proofs.«149539_j558345749221_2_alg».proof.Proof.Gen.KernelIdeal.Skeleton
import proofs.«149539_j558345749221_2_alg».proof.Proof.RowSoftmax
import proofs.«149539_j558345749221_2_alg».proof.Proof.LibKeepdimsColumn
import Idealize.ShloMosaic.Lib.Pipeline.Value
import Idealize.ShloMosaic.PureOps.Ideal.Laws

noncomputable section

open scoped BigOperators

namespace Cert.MaskedLinear.MaskBlock

open Cert.KernelIdeal Cert.KernelIdeal.Facts₀ Cert.MaskedLinear
open Idealize.ShloMosaic Idealize.ShloMosaic.ValueIdx

/-- Row p of a [256, 2048] block, as a function of the column. -/
def blockRow (v : S256x2048.Idx → EReal) (p : Fin 256) : Fin 2048 → EReal := fun k => v (ix2 p k)

/-- Inserting column k on the reduced axis of the row index p gives (p, k). -/
theorem lift_row (p : Fin 256) (k : Fin 2048) : reduces_S256x2048_S256.lift (ix1 p) k = ix2 p k :=
  funext fun a => Fin.ext (by match a with | ⟨0, _⟩ => rfl | ⟨1, _⟩ => rfl)

/-- A vector of 256 numbers turned into a column and broadcast along the rows: entry (p, q) is the p-th number. -/
theorem column_at (u : FVec Ideal S256 .f32) (p : Fin 256) (q : Fin 2048) :
    broadcastTo S256x2048 (shapeCast S256x1 u shapeCasts_S256_S256x1) broadcasts_S256x1_S256x2048 (ix2 p q) = u (ix1 p) :=
  Cert.Lib.KeepdimsColumn.column_at u shapeCasts_S256_S256x1 broadcasts_S256x1_S256x2048 p q

/-- The block's entries over the temperature. -/
def scaled (v0 : FVec Ideal S256x2048 .f32) : FVec Ideal S256x2048 .f32 :=
  divf v0 (broadcast S256x2048 (Scalar.ofBits .f32 0x358637BD#32))

/-- Each row's largest scaled entry. -/
def top (v0 : FVec Ideal S256x2048 .f32) : FVec Ideal S256 .f32 :=
  multiReduction .maximumf [1] S256 (scaled v0) 0xFF800000#32 reduces_S256x2048_S256 (.inl rfl) rfl

/-- The exponentials of the scaled entries less their row's largest. -/
def exps (v0 : FVec Ideal S256x2048 .f32) : FVec Ideal S256x2048 .f32 :=
  exp (subf (scaled v0) (broadcastTo S256x2048 (shapeCast S256x1 (top v0) shapeCasts_S256_S256x1) broadcasts_S256x1_S256x2048))

/-- Each row's total of them. -/
def mass (v0 : FVec Ideal S256x2048 .f32) : FVec Ideal S256 .f32 :=
  multiReduction .add [1] S256 (exps v0) 0x00000000#32 reduces_S256x2048_S256 (.inl rfl) rfl

/-- The softmax of the block's rows. -/
def soft (v0 : FVec Ideal S256x2048 .f32) : FVec Ideal S256x2048 .f32 :=
  divf (exps v0) (broadcastTo S256x2048 (shapeCast S256x1 (mass v0) shapeCasts_S256_S256x1) broadcasts_S256x1_S256x2048)

/-- The body's stored value is the product of the rev block, the softmax and the transposed-weight block. -/
theorem payload_eq (v0 v12 v14 : Vec Ideal S256x2048 .f32) :
    Gen.k0_pay1 (F := Ideal) v0 v12 v14
      = truncf .bf16 (mulf (mulf v12 (soft v0)) (shapeCast S256x2048 v14 shapeCasts_S256x2048_S256x2048)) bitsLt_bf16_f32 := rfl

theorem scaled_at (v0 : FVec Ideal S256x2048 .f32) (p : Fin 256) (k : Fin 2048) :
    scaled v0 (ix2 p k) = rowScaled (blockRow v0 p) k := rfl

theorem top_at (v0 : FVec Ideal S256x2048 .f32) (p : Fin 256) : top v0 (ix1 p) = rowTop (blockRow v0 p) := by
  refine (Ideal.multiReduction_maximumf_single (scaled v0) 0xFF800000#32 reduces_S256x2048_S256 (.inl rfl) rfl (ix1 p)).trans ?_
  have hf : (scaled v0 ∘ reduces_S256x2048_S256.lift (ix1 p)) = rowScaled (blockRow v0 p) :=
    funext fun k => (congrArg (scaled v0) (lift_row p k)).trans (scaled_at v0 p k)
  rw [hf]
  rfl

theorem exps_at (v0 : FVec Ideal S256x2048 .f32) (p : Fin 256) (k : Fin 2048) :
    exps v0 (ix2 p k) = rowExp (blockRow v0 p) k := by
  show Ideal.exp (scaled v0 (ix2 p k) - broadcastTo S256x2048 (shapeCast S256x1 (top v0) shapeCasts_S256_S256x1) broadcasts_S256x1_S256x2048 (ix2 p k)) = _
  rw [column_at, top_at]
  rfl

theorem mass_at (v0 : FVec Ideal S256x2048 .f32) (p : Fin 256) : mass v0 (ix1 p) = rowMass (blockRow v0 p) := by
  refine (Ideal.multiReduction_add_single (exps v0) 0x00000000#32 reduces_S256x2048_S256 (.inl rfl) rfl (ix1 p)).trans ?_
  unfold rowMass
  exact Finset.sum_congr rfl fun k _ => (congrArg (exps v0) (lift_row p k)).trans (exps_at v0 p k)

theorem soft_at (v0 : FVec Ideal S256x2048 .f32) (p : Fin 256) (k : Fin 2048) :
    soft v0 (ix2 p k) = softmaxRow (blockRow v0 p) k := by
  show Ideal.div (exps v0 (ix2 p k)) (broadcastTo S256x2048 (shapeCast S256x1 (mass v0) shapeCasts_S256_S256x1) broadcasts_S256x1_S256x2048 (ix2 p k)) = _
  rw [column_at, mass_at, exps_at]
  rfl

/-- The stored block, entry (p, q): rev(p, q) · softmax(mask row p)(q) · weightᵀ(p, q). -/
theorem payload_at (v0 v12 v14 : Vec Ideal S256x2048 .f32) (p : Fin 256) (q : Fin 2048) :
    Gen.k0_pay1 (F := Ideal) v0 v12 v14 (ix2 p q) = v12 (ix2 p q) * softmaxRow (blockRow v0 p) q * v14 (ix2 p q) := by
  rw [payload_eq, shapeCast_self]
  show v12 (ix2 p q) * soft v0 (ix2 p q) * v14 (ix2 p q) = _
  rw [soft_at]

/-- A block of 256 consecutive rows is a restriction of the whole matrices: if block index y sits at array index
    e y, with row `base + row of y` and the same column, and the three loaded blocks are the mask, rev and
    transposed-weight matrices read through e, then the stored block is the masked matrix read through e. -/
theorem block_value (x0 x1 x2 : Vec Ideal S256x2048 .f32) (rev mask wT : Sq.Idx → EReal)
    (e : S256x2048.Idx → Sq.Idx) (base : Nat)
    (he0 : ∀ y, ((e y) 0).val = base + (y 0).val) (he1 : ∀ y, ((e y) 1).val = (y 1).val)
    (h0 : x0 = fun y => rev (e y)) (h1 : x1 = fun y => mask (e y)) (h2 : x2 = fun y => wT (e y)) :
    Gen.k0_pay1 (F := Ideal) x1 x0 x2 = fun y => maskedMatrix rev mask wT (e y) := by
  funext y
  obtain ⟨p, q, rfl⟩ : ∃ (p : Fin 256) (q : Fin 2048), y = ix2 p q := ⟨y 0, y 1, eq_ix2 y⟩
  obtain ⟨o, i, hoi⟩ : ∃ (o i : Fin 2048), e (ix2 p q) = ix2 o i := ⟨(e (ix2 p q)) 0, (e (ix2 p q)) 1, eq_ix2 _⟩
  have ho : o.val = base + p.val := by have h := he0 (ix2 p q); rw [hoi] at h; exact h
  have hi : i = q := Fin.ext (by have h := he1 (ix2 p q); rw [hoi] at h; exact h)
  subst hi
  have hrow : blockRow x1 p = rowOf mask o := by
    funext k
    show x1 (ix2 p k) = mask (ix2 o k)
    rw [h1]
    refine congrArg mask ?_
    obtain ⟨o', k', hk⟩ : ∃ (o' k' : Fin 2048), e (ix2 p k) = ix2 o' k' := ⟨(e (ix2 p k)) 0, (e (ix2 p k)) 1, eq_ix2 _⟩
    have ho' : o' = o := Fin.ext (by have h := he0 (ix2 p k); rw [hk] at h; exact h.trans ho.symm)
    have hk' : k' = k := Fin.ext (by have h := he1 (ix2 p k); rw [hk] at h; exact h)
    rw [hk, ho', hk']
  refine (payload_at x1 x0 x2 p i).trans ?_
  rw [hrow, h0, h2]
  show rev (e (ix2 p i)) * softmaxRow (rowOf mask o) i * wT (e (ix2 p i)) = maskedMatrix rev mask wT (e (ix2 p i))
  rw [hoi]
  rfl

end Cert.MaskedLinear.MaskBlock

end
-- ==== Proof.MaskArray.lean ====
/-
  The masked weight as the first pallas_call leaves it in memory.

  The call's grid has 8 points; point t reads rows 256·t … 256·t + 255 of the rev, mask and transposed-weight
  matrices, and writes back the same rows of its output. Every row lies in exactly one point's block, so after the
  call the output array is the masked matrix of RowSoftmax.lean, built from the three arrays as the call found them.
-/
import proofs.«149539_j558345749221_2_alg».proof.Proof.Gen.KernelIdeal.Frame
import proofs.«149539_j558345749221_2_alg».proof.Proof.MaskBlock
import Idealize.ShloMosaic.Lib.Pipeline.Value

noncomputable section

namespace Cert.MaskedLinear.MaskArray

open Cert.KernelIdeal Cert.KernelIdeal.Gen Cert.MaskedLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Every window's block index at point t is (t, 0): the t-th band of 256 rows, all 2048 columns. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The masked matrix built from the arrays as the call finds them. -/
def target (c : Dev nD) : S2048x2048.Idx → EReal :=
  maskedMatrix (V c main_arg2) (V c main_arg3) (V c main_v0)

/-- What point t writes back is its band of rows of the masked matrix. -/
theorem written_eq (c : Dev nD) (t : Fin cfg0.N) :
    (dat0 V c).flushed 3 t = ((cfg0.win 3).blk t).view.read (Elt Ideal) (target V c) := by
  show (cfg0.win 3).cut (grid0.coords t) ((dat0 V c).after 3 t) = _
  rw [after0_3]
  unfold out0_3
  rw [View.canon_unit_zero offsets_zero]
  simp only [View.ld_unit_zero (S := S256x2048) offsets_zero]
  obtain ⟨e00, e01, e10, e11, e20, e21, e30, e31⟩ := block_index t
  have he0 : ∀ y : S256x2048.Idx, ((((cfg0.win 3).blk t).view.emb y) 0).val = t.val * 256 + (y 0).val := fun y => by
    show win0_3.index t (0 : Fin 2) * 256 + 1 * (y 0).val = _
    rw [e30]; omega
  have he1 : ∀ y : S256x2048.Idx, ((((cfg0.win 3).blk t).view.emb y) 1).val = (y 1).val := fun y => by
    show win0_3.index t (1 : Fin 2) * 2048 + 1 * (y 1).val = _
    rw [e31]; omega
  have same0 : ∀ y : S256x2048.Idx, ((cfg0.win 0).blk t).view.emb y = ((cfg0.win 3).blk t).view.emb y := fun y => by
    funext a; apply Fin.ext
    match a with
    | ⟨0, _⟩ => show win0_0.index t (0 : Fin 2) * 256 + 1 * (y 0).val = win0_3.index t (0 : Fin 2) * 256 + 1 * (y 0).val; rw [e00, e30]
    | ⟨1, _⟩ => show win0_0.index t (1 : Fin 2) * 2048 + 1 * (y 1).val = win0_3.index t (1 : Fin 2) * 2048 + 1 * (y 1).val; rw [e01, e31]
  have same1 : ∀ y : S256x2048.Idx, ((cfg0.win 1).blk t).view.emb y = ((cfg0.win 3).blk t).view.emb y := fun y => by
    funext a; apply Fin.ext
    match a with
    | ⟨0, _⟩ => show win0_1.index t (0 : Fin 2) * 256 + 1 * (y 0).val = win0_3.index t (0 : Fin 2) * 256 + 1 * (y 0).val; rw [e10, e30]
    | ⟨1, _⟩ => show win0_1.index t (1 : Fin 2) * 2048 + 1 * (y 1).val = win0_3.index t (1 : Fin 2) * 2048 + 1 * (y 1).val; rw [e11, e31]
  have same2 : ∀ y : S256x2048.Idx, ((cfg0.win 2).blk t).view.emb y = ((cfg0.win 3).blk t).view.emb y := fun y => by
    funext a; apply Fin.ext
    match a with
    | ⟨0, _⟩ => show win0_2.index t (0 : Fin 2) * 256 + 1 * (y 0).val = win0_3.index t (0 : Fin 2) * 256 + 1 * (y 0).val; rw [e20, e30]
    | ⟨1, _⟩ => show win0_2.index t (1 : Fin 2) * 2048 + 1 * (y 1).val = win0_3.index t (1 : Fin 2) * 2048 + 1 * (y 1).val; rw [e21, e31]
  have hb := MaskBlock.block_value (iblk0 V c 0 t) (iblk0 V c 1 t) (iblk0 V c 2 t) (V c main_arg2) (V c main_arg3) (V c main_v0)
    (fun y => ((cfg0.win 3).blk t).view.emb y) (t.val * 256) he0 he1
    (funext fun y => congrArg (V c main_arg2) (same0 y))
    (funext fun y => congrArg (V c main_arg3) (same1 y))
    (funext fun y => congrArg (V c main_v0) (same2 y))
  funext j
  exact congrFun hb j

/-- An array index is in point t's block exactly when each coordinate is in the block's range on its axis. -/
theorem mem_block (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v1).slice (win0_3.rect t)).set ↔ _
  rw [View.set_slice_whole, Rect.mem_set_unit]
  exact Iff.rfl

/-- Row r of the array lies in the block of point r / 256. -/
theorem covered (i : S2048x2048.Idx) :
    ∃ t : Fin cfg0.N, (cfg0.win 3).flush t = true ∧ i ∈ ((cfg0.win 3).blk t).view.set := by
  have hi0 : (i 0).val < 2048 := idx2_lt0 i
  have hi1 : (i 1).val < 2048 := idx2_lt1 i
  have hN : grid0.N = 8 := N_0
  have ht : (i 0).val / 256 < cfg0.N := by show _ < grid0.N; omega
  refine ⟨⟨(i 0).val / 256, ht⟩, flush0_3 _, ?_⟩
  rw [mem_block]
  obtain ⟨-, -, -, -, -, -, e30, e31⟩ := block_index ⟨(i 0).val / 256, ht⟩
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e30]
    show (i 0).val / 256 * 256 ≤ (i 0).val ∧ (i 0).val < (i 0).val / 256 * 256 + 256
    omega
  | ⟨1, _⟩ =>
    show win0_3.index ⟨(i 0).val / 256, ht⟩ (1 : Fin 2) * 2048 ≤ (i 1).val ∧ (i 1).val < win0_3.index ⟨(i 0).val / 256, ht⟩ (1 : Fin 2) * 2048 + 2048
    rw [e31]
    omega

/-- After the call its output array is the masked matrix of the arrays as the call found them. -/
theorem array_eq (c : Dev nD) : (dat0 V c).arrAt 3 cfg0.N = target V c :=
  (dat0 V c).arrAt_eq_of_cover 3 (target V c) (fun t _ => written_eq V c t) covered

end Cert.MaskedLinear.MaskArray

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.ProductBlock.lean ====
/-
  What the matmul kernel's body computes on one block of 512 rows of x.

  The body multiplies the [512, 2048] block of x (narrowed to bf16, which changes nothing at the extended reals) with
  the whole [2048, 2048] masked weight, contracting the SECOND axis of both: entry (r, c) of the stored block is
  Σ_k x(r, k) · A(c, k), accumulated into zero.
-/
import proofs.«149539_j558345749221_2_alg».proof.Proof.Gen.KernelIdeal.Skeleton
import proofs.«149539_j558345749221_2_alg».proof.Proof.LibOneAxisDot
import proofs.«149539_j558345749221_2_alg».proof.Proof.RowSoftmax
import Idealize.ShloMosaic.Lib.Pipeline.Value

noncomputable section

open scoped BigOperators

namespace Cert.MaskedLinear.ProductBlock

open Cert.KernelIdeal Cert.KernelIdeal.Facts₀ Cert.MaskedLinear
open Idealize.ShloMosaic Idealize.ShloMosaic.ValueIdx

/-- The product's dimension numbers: both operands contract their axis 1; the free axes are the two axes 0. -/
abbrev D : DotDims S512x2048 S2048x2048 S512x2048 := dot_S512x2048_S2048x2048_S512x2048_1_1_0_0_n_n

theorem lhs_row (j : S512x2048.Idx) (q : D.contr.Idx) : (D.lhsIdx j q 0).val = (j 0).val := by
  unfold DotDims.lhsIdx
  rw [dif_neg (show ¬(0 : Fin S512x2048.rank) ∈ D.lhsBatch by decide), dif_pos (show (0 : Fin S512x2048.rank) ∈ D.lhsNonContracting by decide)]
  rfl

theorem lhs_col (j : S512x2048.Idx) (q : D.contr.Idx) : (D.lhsIdx j q 1).val = (q ⟨0, by decide⟩).val :=
  D.lhsIdx_val_of_single rfl j q

theorem rhs_row (j : S512x2048.Idx) (q : D.contr.Idx) : (D.rhsIdx j q 0).val = (j 1).val := by
  unfold DotDims.rhsIdx
  rw [dif_neg (show ¬(0 : Fin S2048x2048.rank) ∈ D.rhsBatch by decide), dif_pos (show (0 : Fin S2048x2048.rank) ∈ D.rhsNonContracting by decide)]
  rfl

theorem rhs_col (j : S512x2048.Idx) (q : D.contr.Idx) : (D.rhsIdx j q 1).val = (q ⟨0, by decide⟩).val :=
  D.rhsIdx_val_of_single rfl j q

/-- The stored block, entry (r, c): the sum over k of x(r, k) · A(c, k). -/
theorem payload_at (v0 : FVec Ideal S512x2048 .f32) (v2 : FVec Ideal S2048x2048 .bf16) (r : Fin 512) (c : Fin 2048) :
    Gen.k1_pay1 (F := Ideal) v0 v2 (ix2 r c) = ∑ k : Fin 2048, v0 (ix2 r k) * v2 (ix2 c k) := by
  unfold Gen.k1_pay1
  refine (Cert.Lib.OneAxisDot.matmul_zero_apply_at D 2048 rfl rfl none _ _ (ix2 r c)
    (fun k => ix2 r k) (fun k => ix2 c k) (fun k => ?_) (fun k => ?_)).trans ?_
  · have hk := contrEquiv1_symm_val D 2048 rfl rfl k
    exact funext fun a => Fin.ext (by
      match a with
      | ⟨0, _⟩ => exact lhs_row _ _
      | ⟨1, _⟩ => exact (lhs_col _ _).trans hk)
  · have hk := contrEquiv1_symm_val D 2048 rfl rfl k
    exact funext fun a => Fin.ext (by
      match a with
      | ⟨0, _⟩ => exact rhs_row _ _
      | ⟨1, _⟩ => exact (rhs_col _ _).trans hk)
  · refine Finset.sum_congr rfl fun k _ => ?_
    rw [shapeCast_self]
    rfl

/-- A block of 512 consecutive rows of the output is a restriction of x · Aᵀ: if block index y sits at array index
    e y, with row `base + row of y` and the same column, the loaded block of x is x read through e, and the second
    operand is the whole of A, then the stored block is x · Aᵀ read through e. -/
theorem block_value (x0 : FVec Ideal S512x2048 .f32) (x1 : FVec Ideal S2048x2048 .bf16) (x : Sx.Idx → EReal) (A : Sq.Idx → EReal)
    (e : S512x2048.Idx → Sx.Idx) (base : Nat)
    (he0 : ∀ y, ((e y) 0).val = base + (y 0).val) (he1 : ∀ y, ((e y) 1).val = (y 1).val)
    (h0 : x0 = fun y => x (e y)) (h1 : x1 = A) :
    Gen.k1_pay1 (F := Ideal) x0 x1 = fun y => timesTransposed x A (e y) := by
  funext y
  obtain ⟨r, c, rfl⟩ : ∃ (r : Fin 512) (c : Fin 2048), y = ix2 r c := ⟨y 0, y 1, eq_ix2 y⟩
  obtain ⟨b, o, hbo⟩ : ∃ (b : Fin 8192) (o : Fin 2048), e (ix2 r c) = ix2 b o := ⟨(e (ix2 r c)) 0, (e (ix2 r c)) 1, eq_ix2 _⟩
  have hb : b.val = base + r.val := by have h := he0 (ix2 r c); rw [hbo] at h; exact h
  have ho : o = c := Fin.ext (by have h := he1 (ix2 r c); rw [hbo] at h; exact h)
  subst ho
  refine (payload_at x0 x1 r o).trans ?_
  rw [hbo]
  show _ = ∑ k : Fin 2048, x (ix2 b k) * A (ix2 o k)
  refine Finset.sum_congr rfl fun k _ => ?_
  rw [h0, h1]
  show x (e (ix2 r k)) * A (ix2 o k) = _
  obtain ⟨b', k', hk⟩ : ∃ (b' : Fin 8192) (k' : Fin 2048), e (ix2 r k) = ix2 b' k' := ⟨(e (ix2 r k)) 0, (e (ix2 r k)) 1, eq_ix2 _⟩
  have hb' : b' = b := Fin.ext (by have h := he0 (ix2 r k); rw [hk] at h; exact h.trans hb.symm)
  have hk' : k' = k := Fin.ext (by have h := he1 (ix2 r k); rw [hk] at h; exact h)
  rw [hk, hb', hk']

end Cert.MaskedLinear.ProductBlock

end
-- ==== Proof.ProductArray.lean ====
/-
  The layer's output as the second pallas_call leaves it in memory.

  The call's grid has 16 points; point t reads rows 512·t … 512·t + 511 of x and the WHOLE masked weight (the same
  block at every point), and writes back the same rows of the output. Every row lies in exactly one point's block, so
  after the call the output array is x · Aᵀ for the x and the masked weight A the call found.
-/
import proofs.«149539_j558345749221_2_alg».proof.Proof.Gen.KernelIdeal.Frame
import proofs.«149539_j558345749221_2_alg».proof.Proof.ProductBlock
import Idealize.ShloMosaic.Lib.Pipeline.Value

noncomputable section

namespace Cert.MaskedLinear.ProductArray

open Cert.KernelIdeal Cert.KernelIdeal.Gen Cert.MaskedLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- At point t the x window and the output window are at block (t, 0); the masked-weight window stays at (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- x · Aᵀ of the arrays as the call finds them. -/
def target (c : Dev nD) : S8192x2048.Idx → EReal :=
  timesTransposed (V c main_arg0) (V c main_v1)

/-- What point t writes back is its band of rows of x · Aᵀ. -/
theorem written_eq (c : Dev nD) (t : Fin cfg1.N) :
    (dat1 V c).flushed 2 t = ((cfg1.win 2).blk t).view.read (Elt Ideal) (target V c) := by
  show (cfg1.win 2).cut (grid1.coords t) ((dat1 V c).after 2 t) = _
  rw [after1_2]
  unfold out1_2
  rw [View.canon_unit_zero offsets_zero]
  simp only [View.ld_unit_zero (S := S512x2048) offsets_zero, View.ld_unit_zero (S := S2048x2048) offsets_zero]
  obtain ⟨e00, e01, e10, e11, e20, e21⟩ := block_index t
  have he0 : ∀ y : S512x2048.Idx, ((((cfg1.win 2).blk t).view.emb y) 0).val = t.val * 512 + (y 0).val := fun y => by
    show win1_2.index t (0 : Fin 2) * 512 + 1 * (y 0).val = _
    rw [e20]; omega
  have he1 : ∀ y : S512x2048.Idx, ((((cfg1.win 2).blk t).view.emb y) 1).val = (y 1).val := fun y => by
    show win1_2.index t (1 : Fin 2) * 2048 + 1 * (y 1).val = _
    rw [e21]; omega
  have same0 : ∀ y : S512x2048.Idx, ((cfg1.win 0).blk t).view.emb y = ((cfg1.win 2).blk t).view.emb y := fun y => by
    funext a; apply Fin.ext
    match a with
    | ⟨0, _⟩ => show win1_0.index t (0 : Fin 2) * 512 + 1 * (y 0).val = win1_2.index t (0 : Fin 2) * 512 + 1 * (y 0).val; rw [e00, e20]
    | ⟨1, _⟩ => show win1_0.index t (1 : Fin 2) * 2048 + 1 * (y 1).val = win1_2.index t (1 : Fin 2) * 2048 + 1 * (y 1).val; rw [e01, e21]
  have whole1 : ∀ y : S2048x2048.Idx, ((cfg1.win 1).blk t).view.emb y = y := fun y => by
    funext a; apply Fin.ext
    match a with
    | ⟨0, _⟩ => show win1_1.index t (0 : Fin 2) * 2048 + 1 * (y 0).val = (y 0).val; rw [e10]; omega
    | ⟨1, _⟩ => show win1_1.index t (1 : Fin 2) * 2048 + 1 * (y 1).val = (y 1).val; rw [e11]; omega
  have hb := ProductBlock.block_value (iblk1 V c 0 t) (iblk1 V c 1 t) (V c main_arg0) (V c main_v1)
    (fun y => ((cfg1.win 2).blk t).view.emb y) (t.val * 512) he0 he1
    (funext fun y => congrArg (V c main_arg0) (same0 y))
    (funext fun y => congrArg (V c main_v1) (whole1 y))
  funext j
  exact congrFun hb j

/-- An array index is in point t's block exactly when each coordinate is in the block's range on its axis. -/
theorem mem_block (t : Fin cfg1.N) (i : S8192x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v2).slice (win1_2.rect t)).set ↔ _
  rw [View.set_slice_whole, Rect.mem_set_unit]
  exact Iff.rfl

/-- Row r of the array lies in the block of point r / 512. -/
theorem covered (i : S8192x2048.Idx) :
    ∃ t : Fin cfg1.N, (cfg1.win 2).flush t = true ∧ i ∈ ((cfg1.win 2).blk t).view.set := by
  have hi0 : (i 0).val < 8192 := idx2_lt0 i
  have hi1 : (i 1).val < 2048 := idx2_lt1 i
  have hN : grid1.N = 16 := N_1
  have ht : (i 0).val / 512 < cfg1.N := by show _ < grid1.N; omega
  refine ⟨⟨(i 0).val / 512, ht⟩, flush1_2 _, ?_⟩
  rw [mem_block]
  obtain ⟨-, -, -, -, e20, e21⟩ := block_index ⟨(i 0).val / 512, ht⟩
  intro a
  match a with
  | ⟨0, _⟩ =>
    show win1_2.index ⟨(i 0).val / 512, ht⟩ (0 : Fin 2) * 512 ≤ (i 0).val ∧ (i 0).val < win1_2.index ⟨(i 0).val / 512, ht⟩ (0 : Fin 2) * 512 + 512
    rw [e20]
    show (i 0).val / 512 * 512 ≤ (i 0).val ∧ (i 0).val < (i 0).val / 512 * 512 + 512
    omega
  | ⟨1, _⟩ =>
    show win1_2.index ⟨(i 0).val / 512, ht⟩ (1 : Fin 2) * 2048 ≤ (i 1).val ∧ (i 1).val < win1_2.index ⟨(i 0).val / 512, ht⟩ (1 : Fin 2) * 2048 + 2048
    rw [e21]
    omega

/-- After the call its output array is x · Aᵀ of the arrays as the call found them. -/
theorem array_eq (c : Dev nD) : (dat1 V c).arrAt 2 cfg1.N = target V c :=
  (dat1 V c).arrAt_eq_of_cover 2 (target V c) (fun t _ => written_eq V c t) covered

end Cert.MaskedLinear.ProductArray

end
-- ==== Proof.KernelRun.lean ====
/-
  The idealized kernel program's run, with its result named.

  @main is a host transpose of the weight, then the mask-building call, then the matmul call. The segment run that
  shows the argument arrays unchanged also tells what every other buffer holds at the end: the result buffer holds
  what the second call's write-backs leave. Read back through the two calls and the transpose, that is the layer of
  RowSoftmax.lean applied to the four argument arrays as launched.
-/
import proofs.«149539_j558345749221_2_alg».proof.Proof.Gen.KernelIdeal.Frame
import proofs.«149539_j558345749221_2_alg».proof.Proof.MaskArray
import proofs.«149539_j558345749221_2_alg».proof.Proof.ProductArray
import Idealize.ShloMosaic.Lib.StableHlo.Run
import Idealize.ShloMosaic.Lib.Pipeline.Value

set_option maxRecDepth 16384

noncomputable section

namespace Cert.MaskedLinear.KernelRun

open Cert.KernelIdeal Cert.KernelIdeal.Gen Cert.MaskedLinear
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the end the result buffer holds the contents
    the last segment boundary assigns to it, and the four argument arrays are as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Run

section Value

variable (m : (ℓ : Loc nD τ sig) → Buf (Elt Ideal) ℓ) (ρ : Dev nD → PrngReg)

/-- The first call finds the weight already transposed by the host. -/
theorem entry_weightT (c : Dev nD) :
    (V1 m ρ c main_v0 : S2048x2048.Idx → EReal) = transposed (m ((c.tc : Thread nD τ).loc main_arg1)) := by
  show StableHlo.after hostOps0 (W0 m ρ c) (Proc.devRef .tc main_v0) = _
  after_results
  funext j
  exact transpose_apply [1, 0] _ transposes_S2048x2048_S2048x2048_1_0 j (ix2 (j 1) (j 0)) (fun b => match b with
    | ⟨0, _⟩ => rfl
    | ⟨1, _⟩ => rfl)

/-- The host transpose writes neither rev, nor the mask, nor x. -/
theorem entry_rev (c : Dev nD) :
    (V1 m ρ c main_arg2 : S2048x2048.Idx → EReal) = m ((c.tc : Thread nD τ).loc main_arg2) := by
  show StableHlo.after hostOps0 (W0 m ρ c) (Proc.devRef .tc main_arg2) = _
  after_results
theorem entry_mask (c : Dev nD) :
    (V1 m ρ c main_arg3 : S2048x2048.Idx → EReal) = m ((c.tc : Thread nD τ).loc main_arg3) := by
  show StableHlo.after hostOps0 (W0 m ρ c) (Proc.devRef .tc main_arg3) = _
  after_results
theorem entry_x (c : Dev nD) :
    (W1 m ρ c (Proc.devRef .tc main_arg0) : S8192x2048.Idx → EReal) = m ((c.tc : Thread nD τ).loc main_arg0) := by
  show StableHlo.after hostOps0 (W0 m ρ c) (Proc.devRef .tc main_arg0) = _
  after_results

/-- The second call finds, in the first call's output array, the masked matrix of the launch arrays. -/
theorem masked_in_memory (c : Dev nD) :
    (V2 m ρ c main_v1 : S2048x2048.Idx → EReal)
      = maskedMatrix (m ((c.tc : Thread nD τ).loc main_arg2)) (m ((c.tc : Thread nD τ).loc main_arg3))
          (transposed (m ((c.tc : Thread nD τ).loc main_arg1))) := by
  refine (W2_arr m ρ c 3).trans ?_
  refine (MaskArray.array_eq (V1 m ρ) c).trans ?_
  unfold MaskArray.target
  exact congr (congr (congrArg maskedMatrix (entry_rev m ρ c)) (entry_mask m ρ c)) (entry_weightT m ρ c)

/-- … and x as launched: the first call does not touch it. -/
theorem x_in_memory (c : Dev nD) :
    (V2 m ρ c main_arg0 : S8192x2048.Idx → EReal) = m ((c.tc : Thread nD τ).loc main_arg0) :=
  (W2_of_ne m ρ c main_arg0 (by decide)).trans (entry_x m ρ c)

/-- The result buffer at the end holds the layer of the four launch arrays. -/
theorem result_eq (c : Dev nD) :
    (W3 m ρ c (Proc.devRef .tc main_v2) : S8192x2048.Idx → EReal)
      = layer (m ((c.tc : Thread nD τ).loc main_arg0)) (m ((c.tc : Thread nD τ).loc main_arg1))
          (m ((c.tc : Thread nD τ).loc main_arg2)) (m ((c.tc : Thread nD τ).loc main_arg3)) := by
  refine (W3_arr m ρ c 2).trans ?_
  refine (ProductArray.array_eq (V2 m ρ) c).trans ?_
  unfold ProductArray.target layer
  exact congr (congrArg timesTransposed (x_in_memory m ρ c)) (masked_in_memory m ρ c)

/-- The run of the idealized kernel program: it terminates without a fault, its result is the layer of the launch
    arrays, and the arguments are unchanged. -/
theorem run : θ_run defs (onTc (τ := τ) (main (F := Ideal))) ⟨m, fun _ => 0, ρ⟩ (fun r => ∀ c : Dev nD,
      r.2.mem ((c.tc : Thread nD τ).loc main_v2)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_named m ρ)

end Value

end Cert.MaskedLinear.KernelRun

end
-- ==== Proof.ReferenceLayer.lean ====
/-
  The reference program computes the layer of RowSoftmax.lean.

  Its stages, read one entry at a time: the mask divided by the temperature; each row's maximum (a running maximum
  from −∞, then once more the maximum with −∞, which changes nothing); the exponentials of the differences; each
  row's total (a sum started from zero); the quotient; the two products with rev and with the transposed weight;
  and the contraction of x against the masked weight along the shared axis of length 2048.
-/
import proofs.«149539_j558345749221_2_alg».proof.Proof.Gen.ReferenceIdeal.Read
import proofs.«149539_j558345749221_2_alg».proof.Proof.RowSoftmax
import Idealize.ShloMosaic.PureOps.Ideal.Laws
import Idealize.ShloMosaic.PureOps.Reduce

noncomputable section

open scoped BigOperators

namespace Cert.MaskedLinear.Reference

open Cert.ReferenceIdeal Cert.ReferenceIdeal.Gen Cert.ReferenceIdeal.Read Cert.MaskedLinear
open Idealize.ShloMosaic Idealize.ShloMosaic.ValueIdx

/-- Along axis 1 a 2048 × 2048 array reduces to a vector of 2048. -/
theorem reducesRow : S2048x2048.Reduces [1] S2048 := by decide

/-- The index (o, k) obtained by inserting k on the reduced axis of the row index o. -/
theorem lift_row (o k : Fin 2048) : reducesRow.lift (ix1 o) k = ix2 o k :=
  funext fun a => Fin.ext (by match a with | ⟨0, _⟩ => rfl | ⟨1, _⟩ => rfl)

/-- The mask over the temperature, entry (o, k). -/
theorem scaled_at (x3 : S2048x2048.Idx → EReal) (o k : Fin 2048) :
    val_main_v1 (F := Ideal) x3 (ix2 o k) = rowScaled (rowOf x3 o) k := by
  rw [val_main_v1_apply, val_main_v0_apply, val_main_cst_apply]
  rfl

/-- Row o's running maximum from −∞. -/
theorem rowmax_at (x3 : S2048x2048.Idx → EReal) (o : Fin 2048) :
    val_main_v2 (F := Ideal) x3 (ix1 o) = rowTop (rowOf x3 o) := by
  unfold val_main_v2
  rw [Host.reduce_eq_fold_single FloatOps.maximumf _ _ reducesTo_S2048x2048_S2048_d1 reducesRow h_S_ (ix1 o)]
  have hf : (val_main_v1 (F := Ideal) x3 ∘ reducesRow.lift (ix1 o)) = rowScaled (rowOf x3 o) :=
    funext fun k => (congrArg (val_main_v1 (F := Ideal) x3) (lift_row o k)).trans (scaled_at x3 o k)
  rw [hf]
  rfl

/-- The maximum with −∞ once more is the same number. -/
theorem top_at (x3 : S2048x2048.Idx → EReal) (o : Fin 2048) :
    val_main_v4 (F := Ideal) x3 (ix1 o) = rowTop (rowOf x3 o) := by
  rw [val_main_v4_apply, val_main_v3_apply, val_main_cst_1_apply, rowmax_at]
  exact max_floor_rowTop _

/-- The row's maximum, as the [2048, 2048] array it is broadcast to (through a [2048, 1] column). -/
theorem top_broadcast_at (x3 : S2048x2048.Idx → EReal) (o k : Fin 2048) :
    val_main_v6 (F := Ideal) x3 (ix2 o k) = rowTop (rowOf x3 o) := by
  rw [val_main_v6_apply, val_main_v5_apply]
  exact (congrArg (val_main_v4 (F := Ideal) x3) (funext fun a => Fin.ext (by match a with | ⟨0, _⟩ => rfl))).trans (top_at x3 o)

/-- The exponential of a scaled entry less its row's maximum. -/
theorem exp_at (x3 : S2048x2048.Idx → EReal) (o k : Fin 2048) :
    val_main_v8 (F := Ideal) x3 (ix2 o k) = rowExp (rowOf x3 o) k := by
  rw [val_main_v8_apply, val_main_v7_apply, scaled_at, top_broadcast_at]
  rfl

/-- Row o's total: the sum starts from the float zero, which adds nothing. -/
theorem mass_at (x3 : S2048x2048.Idx → EReal) (o : Fin 2048) :
    val_main_v9 (F := Ideal) x3 (ix1 o) = rowMass (rowOf x3 o) := by
  rw [val_main_v9_apply, val_main_cst_2_apply]
  show Ideal.ofBits .f32 0x00000000#32 + _ = _
  rw [Ideal.ofBits_zero_f32, zero_add]
  unfold rowMass
  refine Finset.sum_congr rfl fun k _ => ?_
  exact (congrArg (val_main_v8 (F := Ideal) x3) (funext fun a => Fin.ext (by match a with | ⟨0, _⟩ => rfl | ⟨1, _⟩ => rfl))).trans (exp_at x3 o k)

/-- The row's total, as the [2048, 2048] array it is broadcast to. -/
theorem mass_broadcast_at (x3 : S2048x2048.Idx → EReal) (o k : Fin 2048) :
    val_main_v11 (F := Ideal) x3 (ix2 o k) = rowMass (rowOf x3 o) := by
  rw [val_main_v11_apply, val_main_v10_apply]
  exact (congrArg (val_main_v9 (F := Ideal) x3) (funext fun a => Fin.ext (by match a with | ⟨0, _⟩ => rfl))).trans (mass_at x3 o)

/-- The softmax entry. -/
theorem softmax_at (x3 : S2048x2048.Idx → EReal) (o k : Fin 2048) :
    val_main_v12 (F := Ideal) x3 (ix2 o k) = softmaxRow (rowOf x3 o) k := by
  rw [val_main_v12_apply, exp_at, mass_broadcast_at]
  rfl

/-- The masked weight: rev · softmax · (weight transposed), entry (o, k). -/
theorem masked_at (x1 x2 x3 : S2048x2048.Idx → EReal) (o k : Fin 2048) :
    val_main_v15 (F := Ideal) x1 x2 x3 (ix2 o k) = maskedAt x2 x3 (transposed x1) o k := by
  rw [val_main_v15_apply, val_main_v13_apply, val_main_v14_apply, softmax_at]
  show x2 (ix2 o k) * softmaxRow (rowOf x3 o) k * x1 (idx_main_v14 (ix2 o k)) = _
  unfold maskedAt transposed
  exact congrArg (fun z => x2 (ix2 o k) * softmaxRow (rowOf x3 o) k * x1 z)
    (funext fun a => Fin.ext (by match a with | ⟨0, _⟩ => rfl | ⟨1, _⟩ => rfl))

/-- The reference's result is the layer. -/
theorem result_eq (x0 : S8192x2048.Idx → EReal) (x1 x2 x3 : S2048x2048.Idx → EReal) :
    val_main_v16 (F := Ideal) x0 x1 x2 x3 = layer x0 x1 x2 x3 := by
  funext j
  obtain ⟨b, o, rfl⟩ : ∃ (b : Fin 8192) (o : Fin 2048), j = ix2 b o := ⟨j 0, j 1, eq_ix2 j⟩
  rw [val_main_v16_apply]
  unfold layer timesTransposed
  refine Finset.sum_congr rfl fun k _ => ?_
  have el : lidx_main_v16 (ix2 b o) k = ix2 b k := funext fun a => Fin.ext (by match a with | ⟨0, _⟩ => rfl | ⟨1, _⟩ => rfl)
  have er : ridx_main_v16 (ix2 b o) k = ix2 o k := funext fun a => Fin.ext (by match a with | ⟨0, _⟩ => rfl | ⟨1, _⟩ => rfl)
  rw [el, er, masked_at]
  rfl

end Cert.MaskedLinear.Reference

end
-- ==== Proof.lean ====
/-
  A masked linear layer: the kernel program against its reference, at the extended reals.

  Both programs compute, from x : [8192, 2048] and three [2048, 2048] matrices (the weight w, rev and mask),
      out(b, o) = Σ_i x(b, i) · rev(o, i) · softmax(mask(o, ·) / T)(i) · w(i, o),
  the softmax taken along each row of mask / T with the row's maximum subtracted first (T is the float 1e-6, the same
  word on both sides). The kernel program transposes w on the host, builds the masked weight 256 rows at a time in
  one call and multiplies 512 rows of x at a time against all of it in a second call; the reference is one line of
  host operations. The two differ only in how the work is cut and in the reference taking the maximum with −∞ once
  more, so the two results are one function of the arguments (RowSoftmax.lean's `layer`): KernelRun.lean reads it off
  the kernel program's run, ReferenceLayer.lean off the reference's. No finiteness of the inputs is used.

  The three frames are the generated ones (the reference's is its generated run with the result dropped), and the
  idealization rewrote nothing, so `preserves` is trivial.
-/
import proofs.«149539_j558345749221_2_alg».proof.Defs
import proofs.«149539_j558345749221_2_alg».proof.Proof.Gen.Kernel
import proofs.«149539_j558345749221_2_alg».proof.Proof.Gen.Kernel.Frame
import proofs.«149539_j558345749221_2_alg».proof.Proof.Gen.KernelIdeal
import proofs.«149539_j558345749221_2_alg».proof.Proof.Gen.KernelIdeal.Frame
import proofs.«149539_j558345749221_2_alg».proof.Proof.Gen.ReferenceIdeal
import proofs.«149539_j558345749221_2_alg».proof.Proof.Gen.ReferenceIdeal.Run
import proofs.«149539_j558345749221_2_alg».proof.Proof.Gen.ReferenceIdeal.Read
import proofs.«149539_j558345749221_2_alg».proof.Proof.Gen.Pre_finite_inputs
import proofs.«149539_j558345749221_2_alg».proof.Proof.KernelRun
import proofs.«149539_j558345749221_2_alg».proof.Proof.ReferenceLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the layer of those arguments in their
    result buffers. -/
theorem algebraic : Cert.algebraic_KernelIdeal_ReferenceIdeal := by
  intro m ρ m' ρ' _ hagree
  refine ⟨_, Cert.MaskedLinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.MaskedLinear.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
